-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S1024x512 : Shape := ⟨2, ![1024, 512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S32768x512 .f32) (main_arg1 : FVec F S1024x512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  main_v8
-- ==== Kernel.lean ====
abbrev S32768x512 : Shape := ⟨2, ![32768, 512]⟩
abbrev S1024x512 : Shape := ⟨2, ![1024, 512]⟩
abbrev S_ : Shape := ⟨0, ![]⟩
abbrev S1024 : Shape := ⟨1, ![1024]⟩
abbrev S1x1024 : Shape := ⟨2, ![1, 1024]⟩
abbrev S32768x1024 : Shape := ⟨2, ![32768, 1024]⟩
abbrev S1024x1024 : Shape := ⟨2, ![1024, 1024]⟩
abbrev S1024x1 : Shape := ⟨2, ![1024, 1]⟩

abbrev nBuf : Space → Nat
  | .hbm => 11
  | .vmem => 6
  | .smem => 0
  | _ => 0

abbrev bufTy : (tb : Table) → Fin (tcTables nBuf tb) → BufTy
  | .hbm, ⟨0, _⟩ => ⟨S32768x512, .f32⟩
  | .hbm, ⟨1, _⟩ => ⟨S1024x512, .f32⟩
  | .hbm, ⟨2, _⟩ => ⟨S1024x512, .bf16⟩
  | .hbm, ⟨3, _⟩ => ⟨S1024x512, .f32⟩
  | .hbm, ⟨4, _⟩ => ⟨S_, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S32768x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  reducesTo_S1024x512_S1024_d1 : S1024x512.ReducesTo [1] S1024
  h_S_ : 0 < S_.numel
  bcast_S_S1024 : S_.BroadcastsInDim S1024 (![] : Fin 0 → Fin S1024.rank)
  shapeCasts_S1024_S1x1024 : S1024.ShapeCasts S1x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  inb_S1024x1024_S1024x1024_0_0 : ∀ a, (![0, 0] : Fin 2 → Nat) a + S1024x1024.size a ≤ S1024x1024.size a
  h_S1024x1024 : 0 < S1024x1024.numel
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S32768x1024.size a
  hwx0_3 : ∀ i : grid0.Coords, EltTy.bits .f32 = 32 ∨ (Rect.block (s := S32768x1024) S1024x1024.size (cc0_transform_3 i) (hinb0_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x512 : Shape := ⟨2, ![32768, 512]⟩
abbrev S1024x512 : Shape := ⟨2, ![1024, 512]⟩
abbrev S_ : Shape := ⟨0, ![]⟩
abbrev S32768 : Shape := ⟨1, ![32768]⟩
abbrev S32768x1 : Shape := ⟨2, ![32768, 1]⟩
abbrev S1024 : Shape := ⟨1, ![1024]⟩
abbrev S32768x1024 : Shape := ⟨2, ![32768, 1024]⟩
abbrev S1x1024 : Shape := ⟨2, ![1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S1024x512, .f32⟩
  | .hbm, ⟨2, _⟩ => ⟨S32768x512, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S1024x512, .f32⟩
  | .hbm, ⟨7, _⟩ => ⟨S_, .f32⟩
  | .hbm, ⟨8, _⟩ => ⟨S1024, .f32⟩
  | .hbm, ⟨9, _⟩ => ⟨S32768x1024, .f32⟩
  | .hbm, ⟨10, _⟩ => ⟨S1x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S_, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S32768, .f32⟩
  | .hbm, ⟨23, _⟩ => ⟨S_, .f32⟩
  | .hbm, ⟨24, _⟩ => ⟨S32768, .f32⟩
  | .hbm, ⟨25, _⟩ => ⟨S32768, .f32⟩
  | .hbm, ⟨26, _⟩ => ⟨S32768x1, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S_, .f32⟩
  | .hbm, ⟨31, _⟩ => ⟨S32768, .f32⟩
  | .hbm, ⟨32, _⟩ => ⟨S32768x1, .f32⟩
  | .hbm, ⟨33, _⟩ => ⟨S32768x1024, .f32⟩
  | .hbm, ⟨34, _⟩ => ⟨S32768x1024, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  reducesTo_S32768x512_S32768_d1 : S32768x512.ReducesTo [1] S32768
  h_S_ : 0 < S_.numel
  bcast_S32768_S32768x1_0 : S32768.BroadcastsInDim S32768x1 (![0] : Fin 1 → Fin S32768x1.rank)
  reducesTo_S1024x512_S1024_d1 : S1024x512.ReducesTo [1] S1024
  bcast_S1024_S1x1024_1 : S1024.BroadcastsInDim S1x1024 (![1] : Fin 1 → Fin S1x1024.rank)
  bcast_S32768x1_S32768x1024_0_1 : S32768x1.BroadcastsInDim S32768x1024 (![0, 1] : Fin 2 → Fin S32768x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  reducesTo_S32768x1024_S32768_d1 : S32768x1024.ReducesTo [1] S32768
  bcast_S_S32768 : S_.BroadcastsInDim S32768 (![] : Fin 0 → Fin S32768.rank)
  dot_S32768x512_S1024x512_S32768x1024_1_1_0_0_n_n_wf : DotDims.WF S32768x512 S1024x512 S32768x1024 [1] [1] [0] [0] [] []

variable [Facts₀]

def dot_S32768x512_S1024x512_S32768x1024_1_1_0_0_n_n : DotDims S32768x512 S1024x512 S32768x1024 where
  lhsContracting := [1]
  rhsContracting := [1]
  lhsNonContracting := [0]
  rhsNonContracting := [0]
  lhsBatch := []
  rhsBatch := []
  wf := dot_S32768x512_S1024x512_S32768x1024_1_1_0_0_n_n_wf

class Facts : Prop extends Facts₀ where

variable [Facts]
-- ==== Proof.SoftmaxLaw.lean ====
/-
  A row's softmax on the extended reals, as both programs compute it: the exponential of each entry less the row's
  maximum, over the sum of those exponentials. The one law that joins the two programs: adding the same REAL number to
  every entry of a row of reals moves the row's maximum by that number, so it changes no difference from the maximum
  and hence no entry of the softmax. On the extended reals the law needs the entries real: at an infinite entry
  the shifted and the unshifted differences need not agree.

  With it, the two logits. The kernel's is x_n · c_k − ½ |c_k|²; the reference's is −½ (|x_n|² + |c_k|² − 2 x_n · c_k),
  which for real arrays is the kernel's plus −½ |x_n|², a number that does not depend on the column k.

  Also here, once: the float patterns the two programs spell, as the extended reals they denote.
-/
import Idealize.ShloMosaic.PureOps.Ideal
import Idealize.ShloMosaic.PureOps.Ideal.Laws
import Idealize.ShloMosaic.Lib.ValueIdx

noncomputable section

namespace Cert.Softmax

open Idealize.ShloMosaic Idealize.ShloMosaic.ValueIdx

/-! ## The patterns -/

/-- The pattern of 0.5 denotes the real 1/2. -/
theorem ofBits_half : Ideal.ofBits .f32 0x3F000000#32 = ((1 / 2 : ℝ) : EReal) := by
  simp [Ideal.ofBits, Ideal.ieee, -EReal.coe_mul]; norm_num

/-- The pattern of -0.5 denotes the real -1/2. -/
theorem ofBits_neg_half : Ideal.ofBits .f32 0xBF000000#32 = ((-(1 / 2) : ℝ) : EReal) := by
  simp [Ideal.ofBits, Ideal.ieee, -EReal.coe_mul]; norm_num

/-- The pattern of 2.0 denotes the real 2. -/
theorem ofBits_two : Ideal.ofBits .f32 0x40000000#32 = ((2 : ℝ) : EReal) := by
  simp [Ideal.ofBits, Ideal.ieee, -EReal.coe_mul]; norm_num

/-- The pattern of -∞ denotes the least extended real. -/
theorem ofBits_neg_inf : Ideal.ofBits .f32 0xFF800000#32 = (⊥ : EReal) := by
  simp [Ideal.ofBits, Ideal.ieee]

/-! ## Sums of reals, read in the extended reals -/

/-- The coercion of a finite sum of reals is the sum of the coercions. -/
theorem coe_sum {ι : Type} (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-! ## A row's maximum and its softmax -/

variable {K : ℕ}

/-- The maximum of a row, folded from -∞. -/
def rowMax (f : Fin K → EReal) : EReal := (Finset.univ : Finset (Fin K)).fold max ⊥ f

/-- The softmax of a row at column k: exp (f k − max f) over the sum of exp (f j − max f). -/
def row (f : Fin K → EReal) (k : Fin K) : EReal :=
  Ideal.div (Ideal.exp (f k - rowMax f)) (∑ j : Fin K, Ideal.exp (f j - rowMax f))

/-- Adding a real to every entry adds it to the maximum: adding a real is monotone, and -∞ plus a real is -∞. -/
theorem fold_max_add (s : Finset (Fin K)) (f : Fin K → EReal) (t : ℝ) :
    s.fold max ⊥ (fun k => f k + (t : EReal)) = s.fold max ⊥ f + (t : EReal) := by
  classical
  refine Finset.induction_on s ?_ ?_
  · simp
  · intro a s ha ih
    rw [Finset.fold_insert ha, Finset.fold_insert ha, ih, max_add_add_right]

/-- A real entry less the maximum is unchanged when the same real is added to both — whatever the maximum is. -/
theorem sub_shift (r t : ℝ) (M : EReal) : ((r : EReal) + (t : EReal)) - (M + (t : EReal)) = (r : EReal) - M := by
  rw [← EReal.coe_add]
  induction M using EReal.rec with
  | bot => simp
  | top => simp
  | coe m =>
    rw [← EReal.coe_add, ← EReal.coe_sub, ← EReal.coe_sub]
    congr 1; ring

/-- THE LAW: the softmax of a row of reals does not change when one real is added to every entry. -/
theorem row_shift (l : Fin K → ℝ) (t : ℝ) :
    row (fun k => ((l k : ℝ) : EReal) + (t : EReal)) = row (fun k => ((l k : ℝ) : EReal)) := by
  funext k
  have hM : rowMax (fun k => ((l k : ℝ) : EReal) + (t : EReal)) = rowMax (fun k => ((l k : ℝ) : EReal)) + (t : EReal) :=
    fold_max_add _ _ _
  unfold row
  rw [hM]
  simp only [sub_shift]

/-! ## The two logits over the arrays -/

/-- The kernel's logit at row n, column k: x_n · c_k − ½ |c_k|². -/
def logit (X : (⟨2, ![32768, 512]⟩ : Shape).Idx → EReal) (C : (⟨2, ![1024, 512]⟩ : Shape).Idx → EReal)
    (n : Fin 32768) (k : Fin 1024) : EReal :=
  (∑ d : Fin 512, X (ix2 n d) * C (ix2 k d)) - ((1 / 2 : ℝ) : EReal) * ∑ d : Fin 512, C (ix2 k d) * C (ix2 k d)

/-- The reference's logit: −½ (|x_n|² + |c_k|² − 2 x_n · c_k), half the negated squared distance of x_n from c_k. -/
def negHalfDist (X : (⟨2, ![32768, 512]⟩ : Shape).Idx → EReal) (C : (⟨2, ![1024, 512]⟩ : Shape).Idx → EReal)
    (n : Fin 32768) (k : Fin 1024) : EReal :=
  ((-(1 / 2) : ℝ) : EReal) * (((∑ d : Fin 512, X (ix2 n d) * X (ix2 n d)) + ∑ d : Fin 512, C (ix2 k d) * C (ix2 k d))
    - ((2 : ℝ) : EReal) * ∑ d : Fin 512, X (ix2 n d) * C (ix2 k d))

/-- The result both programs end at: row n of the output is the softmax of row n of the kernel's logits. -/
def G (X : (⟨2, ![32768, 512]⟩ : Shape).Idx → EReal) (C : (⟨2, ![1024, 512]⟩ : Shape).Idx → EReal) :
    (⟨2, ![32768, 1024]⟩ : Shape).Idx → EReal :=
  fun i => row (logit X C (i 0)) (i 1)

theorem G_apply (X : (⟨2, ![32768, 512]⟩ : Shape).Idx → EReal) (C : (⟨2, ![1024, 512]⟩ : Shape).Idx → EReal)
    (n : Fin 32768) (k : Fin 1024) : G X C (ix2 n k) = row (logit X C n) k := rfl

/-- For real arrays the kernel's logit is the real x_n · c_k − ½ |c_k|². -/
theorem logit_coe (xr : (⟨2, ![32768, 512]⟩ : Shape).Idx → ℝ) (cr : (⟨2, ![1024, 512]⟩ : Shape).Idx → ℝ)
    (n : Fin 32768) (k : Fin 1024) :
    logit (fun i => (xr i : EReal)) (fun i => (cr i : EReal)) n k
      = (((∑ d : Fin 512, xr (ix2 n d) * cr (ix2 k d)) - 1 / 2 * ∑ d : Fin 512, cr (ix2 k d) * cr (ix2 k d) : ℝ) : EReal) := by
  unfold logit
  simp only [← EReal.coe_mul, ← coe_sum, ← EReal.coe_sub]

/-- For real arrays the reference's logit is the kernel's plus −½ |x_n|², which does not depend on k: the product
    distributes over the three real sums. -/
theorem negHalfDist_coe (xr : (⟨2, ![32768, 512]⟩ : Shape).Idx → ℝ) (cr : (⟨2, ![1024, 512]⟩ : Shape).Idx → ℝ)
    (n : Fin 32768) (k : Fin 1024) :
    negHalfDist (fun i => (xr i : EReal)) (fun i => (cr i : EReal)) n k
      = (((∑ d : Fin 512, xr (ix2 n d) * cr (ix2 k d)) - 1 / 2 * ∑ d : Fin 512, cr (ix2 k d) * cr (ix2 k d) : ℝ) : EReal)
        + ((-(1 / 2) * ∑ d : Fin 512, xr (ix2 n d) * xr (ix2 n d) : ℝ) : EReal) := by
  unfold negHalfDist
  simp only [← EReal.coe_mul, ← coe_sum, ← EReal.coe_sub, ← EReal.coe_add]
  congr 1; ring

/-- So, for arrays of reals, the softmax of a row of the reference's logits is the softmax of that row of the kernel's. -/
theorem row_negHalfDist (X : (⟨2, ![32768, 512]⟩ : Shape).Idx → EReal) (C : (⟨2, ![1024, 512]⟩ : Shape).Idx → EReal)
    (hX : ∀ i, ∃ r : ℝ, X i = (r : EReal)) (hC : ∀ i, ∃ r : ℝ, C i = (r : EReal)) (n : Fin 32768) :
    row (negHalfDist X C n) = row (logit X C n) := by
  choose xr hxr using hX
  choose cr hcr using hC
  obtain rfl : X = fun i => (xr i : EReal) := funext hxr
  obtain rfl : C = fun i => (cr i : EReal) := funext hcr
  rw [show negHalfDist (fun i => (xr i : EReal)) (fun i => (cr i : EReal)) n = _ from funext fun k => negHalfDist_coe xr cr n k,
    show logit (fun i => (xr i : EReal)) (fun i => (cr i : EReal)) n = _ from funext fun k => logit_coe xr cr n k]
  exact row_shift _ _

end Cert.Softmax

end
-- ==== Proof.RefValue.lean ====
/-
  The reference program read at an index. Its stages, in order: the logits z = −½ (|x_n|² + |c_k|² − 2 x_n · c_k)
  (sums over the 512 features, broadcast to [32768, 1024]); the row maximum of z, folded from −∞ and then once more
  joined with −∞, which changes nothing; exp (z − max); the row sum of those; the quotient. So entry (n, k) of the
  result is the softmax of row n of z at column k — and, for arrays of reals, the softmax of row n of the kernel's
  logits, by the shift law.
-/
import proofs.«117684_j66589172957621_2_alg».proof.Proof.Gen.ReferenceIdeal.Read
import proofs.«117684_j66589172957621_2_alg».proof.Proof.SoftmaxLaw
import Idealize.ShloMosaic.PureOps.Reduce

noncomputable section

namespace Cert.ClusterHead.Ref

open Cert.ReferenceIdeal Cert.ReferenceIdeal.Gen Cert.ReferenceIdeal.Read Idealize.ShloMosaic Idealize.ShloMosaic.ValueIdx
open Cert.Softmax

variable (X : (⟨S32768x512, .f32⟩ : BufTy).Contents (Elt Ideal)) (C : (⟨S1024x512, .f32⟩ : BufTy).Contents (Elt Ideal))

/-! ## The composed index maps, at (n, k) -/

theorem idx_xsq (n : Fin 32768) (k : Fin 1024) (d : Fin 512) :
    idx_main_v1 (idx_main_v2 (idx_main_v7 (ix2 n k))) d = ix2 n d :=
  funext fun a => Fin.ext (by match a with | ⟨0, _⟩ => rfl | ⟨1, _⟩ => rfl)

theorem idx_csq (n : Fin 32768) (k : Fin 1024) (d : Fin 512) :
    idx_main_v4 (idx_main_v6 (idx_main_v8 (ix2 n k))) d = ix2 k d :=
  funext fun a => Fin.ext (by match a with | ⟨0, _⟩ => rfl | ⟨1, _⟩ => rfl)

theorem idx_lhs (n : Fin 32768) (k : Fin 1024) (d : Fin 512) : lidx_main_v5 (ix2 n k) d = ix2 n d :=
  funext fun a => Fin.ext (by match a with | ⟨0, _⟩ => rfl | ⟨1, _⟩ => rfl)

theorem idx_rhs (n : Fin 32768) (k : Fin 1024) (d : Fin 512) : ridx_main_v5 (ix2 n k) d = ix2 k d :=
  funext fun a => Fin.ext (by match a with | ⟨0, _⟩ => rfl | ⟨1, _⟩ => rfl)

/-! ## The stages -/

/-- The reference's logits at (n, k). -/
theorem logits_apply (n : Fin 32768) (k : Fin 1024) :
    val_main_v14 (F := Ideal) X C (ix2 n k) = negHalfDist X C n k := by
  rw [val_main_v14_apply, val_main_v13_apply, val_main_cst_2_apply, val_main_v12_apply, val_main_v9_apply,
    val_main_v11_apply, val_main_v10_apply, val_main_cst_1_apply, val_main_v5_apply, val_main_v7_apply,
    val_main_v2_apply, val_main_v1_apply, val_main_cst_apply, val_main_v8_apply, val_main_v6_apply,
    val_main_v4_apply, val_main_cst_0_apply]
  simp only [val_main_v0_apply, val_main_v3_apply, Ideal.mulf_def, Ideal.addf_def, Ideal.subf_def, Ideal.ofBits_def,
    ofBits_neg_half, ofBits_two, Ideal.ofBits_zero_f32, zero_add, idx_xsq, idx_csq, idx_lhs, idx_rhs]
  rfl

/-- Row n's index with column k put back on the reduced axis is (n, k). -/
theorem lift_cols (h : S32768x1024.Reduces [1] S32768) (n : Fin 32768) (k : Fin 1024) :
    h.lift (ix1 n) k = ix2 n k :=
  funext fun a => Fin.ext (by match a with | ⟨0, _⟩ => rfl | ⟨1, _⟩ => rfl)

/-- A host reduction by max over the columns, from −∞, is at row n the fold of max from −∞ over that row. -/
theorem hostRowMax (w : FVec Ideal S32768x1024 .f32) (h' : S32768x1024.ReducesTo [1] S32768) (hu : 0 < S_.numel)
    (n : Fin 32768) :
    Host.reduce FloatOps.maximumf w (constant (F := Ideal) S_ .f32 0xFF800000#32) h' hu (ix1 n)
      = rowMax (fun k : Fin 1024 => w (ix2 n k)) := by
  have hR : S32768x1024.Reduces [1] S32768 := by decide
  rw [Host.reduce_eq_fold_single FloatOps.maximumf w _ h' hR hu]
  show (Finset.univ : Finset (Fin 1024)).fold max (Ideal.ofBits .f32 0xFF800000#32) (fun k => w (hR.lift (ix1 n) k)) = _
  rw [ofBits_neg_inf]
  unfold rowMax
  exact congrArg (fun f => Finset.fold max ⊥ f (Finset.univ : Finset (Fin 1024)))
    (funext fun k => congrArg w (lift_cols hR n k))

/-- The reference's row maximum: the fold of max from −∞ over the row of logits. -/
theorem rowMax_apply (n : Fin 32768) :
    val_main_v15 (F := Ideal) X C (ix1 n) = rowMax (negHalfDist X C n) := by
  unfold val_main_v15
  exact (hostRowMax (val_main_v14 (F := Ideal) X C) reducesTo_S32768x1024_S32768_d1 h_S_ n).trans
    (congrArg rowMax (funext fun k => logits_apply X C n k))

/-- Joined once more with −∞ and broadcast along the row, it is still that maximum. -/
theorem rowMaxB_apply (n : Fin 32768) (k : Fin 1024) :
    val_main_v19 (F := Ideal) X C (ix2 n k) = rowMax (negHalfDist X C n) := by
  rw [val_main_v19_apply, val_main_v18_apply, val_main_v17_apply, val_main_v16_apply, val_main_cst_4_apply]
  have e : idx_main_v18 (idx_main_v19 (ix2 n k)) = ix1 n :=
    funext fun a => Fin.ext (by match a with | ⟨0, _⟩ => rfl)
  rw [e, rowMax_apply]
  simp only [Ideal.maximumf_def, Ideal.ofBits_def, ofBits_neg_inf, bot_le, max_eq_right]

/-- exp (z − max z) at (n, k). -/
theorem expShift_apply (n : Fin 32768) (k : Fin 1024) :
    val_main_v21 (F := Ideal) X C (ix2 n k) = Ideal.exp (negHalfDist X C n k - rowMax (negHalfDist X C n)) := by
  rw [val_main_v21_apply, val_main_v20_apply, logits_apply, rowMaxB_apply]
  rfl

/-- The row sum of those, broadcast along the row. -/
theorem rowSumB_apply (n : Fin 32768) (k : Fin 1024) :
    val_main_v24 (F := Ideal) X C (ix2 n k)
      = ∑ j : Fin 1024, Ideal.exp (negHalfDist X C n j - rowMax (negHalfDist X C n)) := by
  rw [val_main_v24_apply, val_main_v23_apply, val_main_v22_apply, val_main_cst_5_apply]
  have e : ∀ j : Fin 1024, idx_main_v22 (idx_main_v23 (idx_main_v24 (ix2 n k))) j = ix2 n j := fun j =>
    funext fun a => Fin.ext (by match a with | ⟨0, _⟩ => rfl | ⟨1, _⟩ => rfl)
  simp only [e, expShift_apply, Ideal.ofBits_def, Ideal.ofBits_zero_f32, zero_add]

/-- The reference's result at (n, k): the softmax of row n of its logits at column k. -/
theorem result_apply (n : Fin 32768) (k : Fin 1024) :
    val_main_v25 (F := Ideal) X C (ix2 n k) = row (negHalfDist X C n) k := by
  rw [val_main_v25_apply, expShift_apply, rowSumB_apply]
  rfl

/-- THE REFERENCE IS THE SPECIFICATION, for arrays of reals: row by row, the shift law. -/
theorem result_eq (hX : ∀ i, ∃ r : ℝ, X i = (r : EReal)) (hC : ∀ i, ∃ r : ℝ, C i = (r : EReal)) :
    val_main_v25 (F := Ideal) X C = G X C := by
  funext i
  obtain ⟨n, k, rfl⟩ : ∃ (n : Fin 32768) (k : Fin 1024), i = ix2 n k := ⟨i 0, i 1, eq_ix2 i⟩
  rw [result_apply, G_apply, row_negHalfDist X C hX hC n]

end Cert.ClusterHead.Ref

end
-- ==== Proof.LibColumns.lean ====
/-
  A column kept as a unit last axis, read at an index: the two layout steps of a `keepdims` reduction — a vector
  `[a]` cast to a column `[a, 1]`, and a column `[a, 1]` broadcast along its unit axis to `[a, b]`. General in the
  extents and in the element type; they complement the library's leading-unit-axis casts and its row broadcast.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate
    `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.KernelBlock.lean ====
/-
  What the kernel body stores, read at an entry (p, q) of its [1024, 1024] output block, as a function of the three
  blocks it loads: a block of 1024 rows of x, all of the centers (their rounding to a narrower format is the identity
  on the extended reals), and the row vector h of half squared norms. The body forms the logits x_p · c_q − h_q (a
  matrix product into a zero accumulator is a sum over the 512 features), takes each row's maximum and each row's sum
  of exponentials as a column kept with a unit last axis and broadcast back along the row, and divides: entry (p, q)
  is the softmax of row p of the block's logits at column q.
-/
import proofs.«117684_j66589172957621_2_alg».proof.Proof.Gen.KernelIdeal.Skeleton
import proofs.«117684_j66589172957621_2_alg».proof.Proof.SoftmaxLaw
import proofs.«117684_j66589172957621_2_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

namespace Cert.ClusterHead.Body

open Cert.KernelIdeal Cert.KernelIdeal.Gen Idealize.ShloMosaic Idealize.ShloMosaic.ValueIdx
open Cert.Softmax

/-! ## The body's three pieces -/

/-- The block of logits: the matrix product of the x block with the centers, less the row vector broadcast down. -/
def logitsBlk (v0 : FVec Ideal S1024x512 .f32) (v1 : FVec Ideal S1024x512 .bf16) (v3 : FVec Ideal S1x1024 .f32) :
    FVec Ideal S1024x1024 .f32 :=
  subf (matmul dot_S1024x512_S1024x512_S1024x1024_1_1_0_0_n_n none
      (truncf .bf16 v0 bitsLt_bf16_f32 : FVec Ideal S1024x512 .bf16)
      (shapeCast S1024x512 v1 shapeCasts_S1024x512_S1024x512 : FVec Ideal S1024x512 .bf16)
      (constant (F := Ideal) S1024x1024 .f32 0x00000000#32))
    (broadcastTo S1024x1024 (shapeCast S1x1024 v3 shapeCasts_S1x1024_S1x1024 : FVec Ideal S1x1024 .f32)
      broadcasts_S1x1024_S1024x1024)

/-- Each row's maximum, as a column broadcast back along the row. -/
def rowMaxB (W : FVec Ideal S1024x1024 .f32) : FVec Ideal S1024x1024 .f32 :=
  broadcastTo S1024x1024 (shapeCast S1024x1
    (multiReduction .maximumf [1] S1024 W 0xFF800000#32 reduces_S1024x1024_S1024 (.inl rfl) rfl)
    shapeCasts_S1024_S1024x1) broadcasts_S1024x1_S1024x1024

/-- Each row's sum, as a column broadcast back along the row. -/
def rowSumB (E : FVec Ideal S1024x1024 .f32) : FVec Ideal S1024x1024 .f32 :=
  broadcastTo S1024x1024 (shapeCast S1024x1
    (multiReduction .add [1] S1024 E 0x00000000#32 reduces_S1024x1024_S1024 (.inl rfl) rfl)
    shapeCasts_S1024_S1024x1) broadcasts_S1024x1_S1024x1024

/-- The stored value is the quotient of exp (logits − row maximum) by its row sum. -/
theorem pay_eq (v0 : FVec Ideal S1024x512 .f32) (v1 : FVec Ideal S1024x512 .bf16) (v3 : FVec Ideal S1x1024 .f32) :
    k0_pay1 (F := Ideal) v0 v1 v3
      = divf (exp (subf (logitsBlk v0 v1 v3) (rowMaxB (logitsBlk v0 v1 v3))))
          (rowSumB (exp (subf (logitsBlk v0 v1 v3) (rowMaxB (logitsBlk v0 v1 v3))))) := rfl

/-! ## Each piece at an entry -/

/-- Row p's index with column j put back on the reduced axis is (p, j). -/
theorem lift_cols (h : S1024x1024.Reduces [1] S1024) (p : Fin 1024) (j : Fin 1024) : h.lift (ix1 p) j = ix2 p j :=
  funext fun a => Fin.ext (by match a with | ⟨0, _⟩ => rfl | ⟨1, _⟩ => rfl)

/-- The broadcast column of row maxima at (p, q) is row p's maximum. -/
theorem rowMaxB_apply (W : FVec Ideal S1024x1024 .f32) (p q : Fin 1024) :
    rowMaxB W (ix2 p q) = rowMax (fun j : Fin 1024 => W (ix2 p j)) := by
  unfold rowMaxB
  refine (broadcastTo_a1_ab_apply _ broadcasts_S1024x1_S1024x1024 p q).trans ?_
  refine (shapeCast_a_a1_apply _ shapeCasts_S1024_S1024x1 p 0).trans ?_
  refine (Ideal.multiReduction_maximumf_single W 0xFF800000#32 reduces_S1024x1024_S1024 (.inl rfl) rfl (ix1 p)).trans ?_
  show (Finset.univ : Finset (Fin 1024)).fold max (Ideal.ofBits .f32 0xFF800000#32)
      (fun j => W (reduces_S1024x1024_S1024.lift (ix1 p) j)) = _
  rw [ofBits_neg_inf]
  unfold rowMax
  exact congrArg (fun f => Finset.fold max ⊥ f (Finset.univ : Finset (Fin 1024)))
    (funext fun j => congrArg W (lift_cols _ p j))

/-- The broadcast column of row sums at (p, q) is row p's sum. -/
theorem rowSumB_apply (E : FVec Ideal S1024x1024 .f32) (p q : Fin 1024) :
    rowSumB E (ix2 p q) = ∑ j : Fin 1024, E (ix2 p j) := by
  unfold rowSumB
  refine (broadcastTo_a1_ab_apply _ broadcasts_S1024x1_S1024x1024 p q).trans ?_
  refine (shapeCast_a_a1_apply _ shapeCasts_S1024_S1024x1 p 0).trans ?_
  refine (Ideal.multiReduction_add_single E 0x00000000#32 reduces_S1024x1024_S1024 (.inl rfl) rfl (ix1 p)).trans ?_
  show ∑ j : Fin 1024, E (reduces_S1024x1024_S1024.lift (ix1 p) j) = _
  exact Finset.sum_congr rfl fun j _ => congrArg E (lift_cols _ p j)

/-- The left operand's row coordinate is the output's row; -/
theorem lhs_row (i : S1024x1024.Idx) (k : dot_S1024x512_S1024x512_S1024x1024_1_1_0_0_n_n.contr.Idx) :
    (dot_S1024x512_S1024x512_S1024x1024_1_1_0_0_n_n.lhsIdx i k 0).val = (i 0).val := by
  unfold DotDims.lhsIdx
  rw [dif_neg (show ¬(0 : Fin S1024x512.rank) ∈ dot_S1024x512_S1024x512_S1024x1024_1_1_0_0_n_n.lhsBatch by decide),
    dif_pos (show (0 : Fin S1024x512.rank) ∈ dot_S1024x512_S1024x512_S1024x1024_1_1_0_0_n_n.lhsNonContracting by decide)]
  rfl
/-- its feature coordinate is the contraction index. -/
theorem lhs_feat (i : S1024x1024.Idx) (k : dot_S1024x512_S1024x512_S1024x1024_1_1_0_0_n_n.contr.Idx) :
    (dot_S1024x512_S1024x512_S1024x1024_1_1_0_0_n_n.lhsIdx i k 1).val = (k ⟨0, by decide⟩).val :=
  dot_S1024x512_S1024x512_S1024x1024_1_1_0_0_n_n.lhsIdx_val_of_single rfl i k
/-- The right operand's row coordinate is the output's COLUMN (the centers enter transposed); -/
theorem rhs_row (i : S1024x1024.Idx) (k : dot_S1024x512_S1024x512_S1024x1024_1_1_0_0_n_n.contr.Idx) :
    (dot_S1024x512_S1024x512_S1024x1024_1_1_0_0_n_n.rhsIdx i k 0).val = (i 1).val := by
  unfold DotDims.rhsIdx
  rw [dif_neg (show ¬(0 : Fin S1024x512.rank) ∈ dot_S1024x512_S1024x512_S1024x1024_1_1_0_0_n_n.rhsBatch by decide),
    dif_pos (show (0 : Fin S1024x512.rank) ∈ dot_S1024x512_S1024x512_S1024x1024_1_1_0_0_n_n.rhsNonContracting by decide)]
  rfl
/-- its feature coordinate is the contraction index. -/
theorem rhs_feat (i : S1024x1024.Idx) (k : dot_S1024x512_S1024x512_S1024x1024_1_1_0_0_n_n.contr.Idx) :
    (dot_S1024x512_S1024x512_S1024x1024_1_1_0_0_n_n.rhsIdx i k 1).val = (k ⟨0, by decide⟩).val :=
  dot_S1024x512_S1024x512_S1024x1024_1_1_0_0_n_n.rhsIdx_val_of_single rfl i k

/-- The left operand's index at output (p, q) and feature d is (p, d). -/
theorem lhs_at (p q : Fin 1024) (d : Fin 512) :
    dot_S1024x512_S1024x512_S1024x1024_1_1_0_0_n_n.lhsIdx (ix2 p q)
      ((contrEquiv1 dot_S1024x512_S1024x512_S1024x1024_1_1_0_0_n_n 512 rfl rfl).symm d) = ix2 p d := by
  have hk := contrEquiv1_symm_val dot_S1024x512_S1024x512_S1024x1024_1_1_0_0_n_n 512 rfl rfl d
  refine funext fun a => Fin.ext ?_
  match a with
  | ⟨0, _⟩ => exact lhs_row _ _
  | ⟨1, _⟩ => exact (lhs_feat _ _).trans hk

/-- The right operand's index at output (p, q) and feature d is (q, d). -/
theorem rhs_at (p q : Fin 1024) (d : Fin 512) :
    dot_S1024x512_S1024x512_S1024x1024_1_1_0_0_n_n.rhsIdx (ix2 p q)
      ((contrEquiv1 dot_S1024x512_S1024x512_S1024x1024_1_1_0_0_n_n 512 rfl rfl).symm d) = ix2 q d := by
  have hk := contrEquiv1_symm_val dot_S1024x512_S1024x512_S1024x1024_1_1_0_0_n_n 512 rfl rfl d
  refine funext fun a => Fin.ext ?_
  match a with
  | ⟨0, _⟩ => exact rhs_row _ _
  | ⟨1, _⟩ => exact (rhs_feat _ _).trans hk

/-- The logits block at (p, q): the sum over the features of x_p times c_q, less the row vector at q. -/
theorem logitsBlk_apply (v0 : FVec Ideal S1024x512 .f32) (v1 : FVec Ideal S1024x512 .bf16) (v3 : FVec Ideal S1x1024 .f32)
    (p q : Fin 1024) :
    logitsBlk v0 v1 v3 (ix2 p q) = (∑ d : Fin 512, v0 (ix2 p d) * v1 (ix2 q d)) - v3 (ix2 (0 : Fin 1) q) := by
  unfold logitsBlk
  refine congrArg₂ (fun a b : EReal => a - b) ?_ ?_
  · refine (Ideal.matmul_constant_zero_apply dot_S1024x512_S1024x512_S1024x1024_1_1_0_0_n_n none _ _ (ix2 p q)).trans ?_
    rw [← Equiv.sum_comp (contrEquiv1 dot_S1024x512_S1024x512_S1024x1024_1_1_0_0_n_n 512 rfl rfl).symm]
    refine Finset.sum_congr rfl fun d _ => ?_
    rw [lhs_at, rhs_at, shapeCast_self]
    rfl
  · refine (broadcastTo_1b_ab_apply _ broadcasts_S1x1024_S1024x1024 p q).trans ?_
    rw [shapeCast_self]

/-- THE BODY AT AN ENTRY: the softmax of row p of the block's logits, at column q. -/
theorem pay_apply (v0 : FVec Ideal S1024x512 .f32) (v1 : FVec Ideal S1024x512 .bf16) (v3 : FVec Ideal S1x1024 .f32)
    (p q : Fin 1024) :
    k0_pay1 (F := Ideal) v0 v1 v3 (ix2 p q)
      = row (fun j : Fin 1024 => (∑ d : Fin 512, v0 (ix2 p d) * v1 (ix2 j d)) - v3 (ix2 (0 : Fin 1) j)) q := by
  rw [pay_eq]
  have hrow : (fun j : Fin 1024 => logitsBlk v0 v1 v3 (ix2 p j))
      = fun j : Fin 1024 => (∑ d : Fin 512, v0 (ix2 p d) * v1 (ix2 j d)) - v3 (ix2 (0 : Fin 1) j) :=
    funext fun j => logitsBlk_apply v0 v1 v3 p j
  rw [← hrow]
  generalize logitsBlk v0 v1 v3 = W
  have hE : ∀ j : Fin 1024, exp (subf W (rowMaxB W)) (ix2 p j) = Ideal.exp (W (ix2 p j) - rowMax (fun j : Fin 1024 => W (ix2 p j))) :=
    fun j => congrArg (fun M : EReal => Ideal.exp (W (ix2 p j) - M)) (rowMaxB_apply W p j)
  exact congrArg₂ Ideal.div (hE q) ((rowSumB_apply _ p q).trans (Finset.sum_congr rfl fun j _ => hE j))

end Cert.ClusterHead.Body

end
-- ==== Proof.KernelArray.lean ====
/-
  From the kernel's blocks to its result array. The grid has 32 points; point t stages rows 1024 t … 1024 t + 1023 of
  x, every row of the centers as the host wrote them in a narrower format (the identity on the extended reals), and the
  row vector the host computed before the launch, h_k = ½ · (0 + the sum over the features of c_k²); it writes back rows
  1024 t … 1024 t + 1023 of the result. By the body's reading at an entry, what point t writes is exactly those rows of
  the specification G; the 32 row blocks tile the result, so the array ends holding G.
-/
import proofs.«117684_j66589172957621_2_alg».proof.Proof.Gen.KernelIdeal.Value
import proofs.«117684_j66589172957621_2_alg».proof.Proof.KernelBlock
import Idealize.ShloMosaic.Lib.StableHlo.Run
import Idealize.ShloMosaic.Lib.Pipeline.Value
import Idealize.ShloMosaic.Lib.ValueLayout
import Idealize.ShloMosaic.Lib.Tactic

noncomputable section

namespace Cert.ClusterHead.Array

open Cert.KernelIdeal Cert.KernelIdeal.Gen Cert.KernelIdeal.Value
open Idealize.ShloMosaic Idealize.ShloMosaic.TcCoe Idealize.SL.Sem Idealize.ShloMosaic.ValueIdx Idealize.ShloMosaic.StableHlo
open Idealize.ShloMosaic.Pipeline (Dat)
open Cert.Softmax

variable (m : (ℓ : Loc nD τ sig) → Buf (Elt Ideal) ℓ) (ρ : Dev nD → PrngReg)

/-- The two argument arrays as functions of an index into the extended reals. -/
abbrev xs (c : Dev nD) : S32768x512.Idx → EReal := m ((c : Thread nD τ).loc main_arg0)
abbrev cs (c : Dev nD) : S1024x512.Idx → EReal := m ((c : Thread nD τ).loc main_arg1)

/-! ## What the host wrote before the launch -/

/-- The centers in the narrower format are, on the extended reals, the centers. -/
theorem V_centers (c : Dev nD) : (V m c main_v0 : S1024x512.Idx → EReal) = cs m c := by
  dsimp only [Gen.V, Gen.hostOps0]
  after_results
  rfl

/-- The row vector: ½ times the host's sum of squares of each center, cast from [1024] to [1, 1024]. -/
theorem V_halfsq (c : Dev nD) :
    (V m c main_v5 : S1x1024.Idx → EReal)
      = shapeCast S1x1024 (mulf (broadcastInDim S1024 ![] bcast_S_S1024 (constant (F := Ideal) S_ .f32 0x3F000000#32))
          (Host.reduceAdd (mulf (cs m c : FVec Ideal S1024x512 .f32) (cs m c))
            (constant (F := Ideal) S_ .f32 0x00000000#32) reducesTo_S1024x512_S1024_d1 h_S_)) shapeCasts_S1024_S1x1024 := by
  dsimp only [Gen.V, Gen.hostOps0]
  after_results
  rfl

/-- A host sum over the features, from zero, is at center k the sum over the 512 features. -/
theorem hostRowSum (w : FVec Ideal S1024x512 .f32) (h' : S1024x512.ReducesTo [1] S1024) (hu : 0 < S_.numel) (k : Fin 1024) :
    Host.reduceAdd w (constant (F := Ideal) S_ .f32 0x00000000#32) h' hu (ix1 k) = ∑ d : Fin 512, w (ix2 k d) := by
  have hR : S1024x512.Reduces [1] S1024 := by decide
  simp only [Host.reduceAdd, Ideal.hostReduceAdd_def]
  rw [Ideal.hostReduceAdd_single h' hR]
  show Ideal.ofBits .f32 0x00000000#32 + ∑ d : Fin 512, w (hR.lift (ix1 k) d) = _
  rw [Ideal.ofBits_zero_f32, zero_add]
  exact Finset.sum_congr rfl fun d _ => congrArg w
    (funext fun a => Fin.ext (by match a with | ⟨0, _⟩ => rfl | ⟨1, _⟩ => rfl))

/-- The row vector at (0, k) is ½ |c_k|². -/
theorem V_halfsq_apply (c : Dev nD) (k : Fin 1024) :
    (V m c main_v5 : S1x1024.Idx → EReal) (ix2 (0 : Fin 1) k)
      = ((1 / 2 : ℝ) : EReal) * ∑ d : Fin 512, cs m c (ix2 k d) * cs m c (ix2 k d) := by
  rw [V_halfsq]
  refine (shapeCast_a_1a_apply _ shapeCasts_S1024_S1x1024 0 k).trans ?_
  refine congrArg₂ (fun a b : EReal => a * b) ?_ ?_
  · refine (broadcastInDim_apply _ bcast_S_S1024 _ (ix1 k) ix0 (fun a => a.elim0)).trans ?_
    exact ofBits_half
  · exact hostRowSum (mulf (cs m c : FVec Ideal S1024x512 .f32) (cs m c)) reducesTo_S1024x512_S1024_d1 h_S_ k

/-! ## The windows' blocks as entries of their arrays -/

/-- The printed index maps, decided over the 32 points: x and the result move down one row block per point; the centers
    and the row vector stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry y of the x block at point t is entry (1024 t + y₀, y₁) of x. -/
theorem xblk_apply (c : Dev nD) (t : Fin cfg0.N) (y : S1024x512.Idx) (i : S32768x512.Idx)
    (h0 : (i 0).val = 1024 * t.val + (y 0).val) (h1 : (i 1).val = (y 1).val) :
    (iblk m c 0 t : Vec Ideal S1024x512 .f32) y = xs m c i := by
  obtain ⟨e0, e1, -⟩ := idx_facts t
  unfold iblk
  rw [View.read_apply]
  show V m c main_arg0 _ = _
  refine (congrFun (V_main_arg0 m c) _).trans ?_
  refine congrArg (xs m c) (funext fun a => Fin.ext ?_)
  match a with
  | ⟨0, _⟩ => show win0_0.index t (0 : Fin 2) * 1024 + 1 * (y 0).val = (i 0).val; rw [e0, h0]; omega
  | ⟨1, _⟩ => show win0_0.index t (1 : Fin 2) * 512 + 1 * (y 1).val = (i 1).val; rw [e1, h1]; omega

/-- The centers' block is, at every point, all of the centers. -/
theorem cblk_apply (c : Dev nD) (t : Fin cfg0.N) (y : S1024x512.Idx) :
    (iblk m c 1 t : Vec Ideal S1024x512 .bf16) y = cs m c y := by
  obtain ⟨-, -, e0, e1, -⟩ := idx_facts t
  unfold iblk
  rw [View.read_apply]
  show (V m c main_v0 : S1024x512.Idx → EReal) _ = _
  refine (congrFun (V_centers m c) _).trans ?_
  refine congrArg (cs m c) (funext fun a => Fin.ext ?_)
  match a with
  | ⟨0, _⟩ => show win0_1.index t (0 : Fin 2) * 1024 + 1 * (y 0).val = (y 0).val; rw [e0]; omega
  | ⟨1, _⟩ => show win0_1.index t (1 : Fin 2) * 512 + 1 * (y 1).val = (y 1).val; rw [e1]; omega

/-- The row vector's block is, at every point, the whole row vector: at (0, k), ½ |c_k|². -/
theorem hblk_apply (c : Dev nD) (t : Fin cfg0.N) (k : Fin 1024) :
    (iblk m c 2 t : Vec Ideal S1x1024 .f32) (ix2 (0 : Fin 1) k)
      = ((1 / 2 : ℝ) : EReal) * ∑ d : Fin 512, cs m c (ix2 k d) * cs m c (ix2 k d) := by
  obtain ⟨-, -, -, -, e0, e1, -⟩ := idx_facts t
  unfold iblk
  rw [View.read_apply]
  show (V m c main_v5 : S1x1024.Idx → EReal) _ = _
  refine Eq.trans (congrArg (V m c main_v5 : S1x1024.Idx → EReal) (funext fun a => Fin.ext ?_)) (V_halfsq_apply m c k)
  match a with
  | ⟨0, _⟩ => show win0_2.index t (0 : Fin 2) * 1 + 1 * 0 = 0; rw [e0]
  | ⟨1, _⟩ => show win0_2.index t (1 : Fin 2) * 1024 + 1 * k.val = k.val; rw [e1]; omega

/-! ## What a point writes back -/

theorem hz : (![0, 0] : Fin 2 → Nat) = fun _ => 0 := funext fun a => by fin_cases a <;> rfl

/-- Over blocks whose entries are the arrays' — the x block 1024 t rows down, the centers whole, the row vector ½ |c|² —
    the body's value at entry y is the specification at entry (1024 t + y₀, y₁). -/
theorem block_eq (X : S32768x512.Idx → EReal) (C : S1024x512.Idx → EReal)
    (x0 : FVec Ideal S1024x512 .f32) (x1 : FVec Ideal S1024x512 .bf16) (x2 : FVec Ideal S1x1024 .f32) (t : ℕ)
    (h0 : ∀ (p : Fin 1024) (d : Fin 512) (n : Fin 32768), n.val = 1024 * t + p.val → x0 (ix2 p d) = X (ix2 n d))
    (h1 : ∀ (k : Fin 1024) (d : Fin 512), x1 (ix2 k d) = C (ix2 k d))
    (h2 : ∀ k : Fin 1024, x2 (ix2 (0 : Fin 1) k) = ((1 / 2 : ℝ) : EReal) * ∑ d : Fin 512, C (ix2 k d) * C (ix2 k d))
    (y : S1024x1024.Idx) (i : S32768x1024.Idx) (hi0 : (i 0).val = 1024 * t + (y 0).val) (hi1 : (i 1).val = (y 1).val) :
    k0_pay1 (F := Ideal) x0 x1 x2 y = G X C i := by
  obtain ⟨p, q, rfl⟩ : ∃ (p q : Fin 1024), y = ix2 p q := ⟨y 0, y 1, eq_ix2 y⟩
  obtain ⟨n, k, rfl⟩ : ∃ (n : Fin 32768) (k : Fin 1024), i = ix2 n k := ⟨i 0, i 1, eq_ix2 i⟩
  have hn : n.val = 1024 * t + p.val := hi0
  obtain rfl : k = q := Fin.ext hi1
  rw [Body.pay_apply, G_apply]
  refine congrArg (fun f => row f k) (funext fun j => ?_)
  unfold logit
  rw [h2 j]
  refine congrArg (fun s : EReal => s - _) (Finset.sum_congr rfl fun d _ => ?_)
  rw [h0 p d n hn, h1 j d]

/-- WHAT POINT t WRITES BACK is block t of the specification of the argument arrays. -/
theorem flushed_eq (c : Dev nD) (t : Fin cfg0.N) :
    (dats m 0 c).flushed 3 t = ((cfg0.win 3).blk t).view.read (Elt Ideal) (G (xs m c) (cs m c)) := by
  obtain ⟨-, -, -, -, -, -, e0, e1⟩ := idx_facts t
  rw [Value.flushed3]
  unfold out0_3
  rw [View.canon_unit_zero hz]
  simp only [View.ld_unit_zero (S := S1024x512) hz, View.ld_unit_zero (S := S1x1024) hz]
  funext j
  show k0_pay1 (F := Ideal) (iblk m c 0 t) (iblk m c 1 t) (iblk m c 2 t) j
    = G (xs m c) (cs m c) (((cfg0.win 3).blk t).view.emb j)
  refine block_eq (xs m c) (cs m c) _ _ _ t.val
    (fun p d n hn => xblk_apply m c t (ix2 p d) (ix2 n d) hn rfl)
    (fun k d => cblk_apply m c t (ix2 k d))
    (fun k => hblk_apply m c t k) j _ ?_ ?_
  · show win0_3.index t (0 : Fin 2) * 1024 + 1 * (j 0).val = 1024 * t.val + (j 0).val
    rw [e0]; omega
  · show win0_3.index t (1 : Fin 2) * 1024 + 1 * (j 1).val = (j 1).val
    rw [e1]; omega

/-! ## The cover, and the array -/

/-- An index of the result is in point t's block iff each coordinate is in the block's range on its axis. -/
theorem mem_blk (t : Fin cfg0.N) (i : S32768x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v6).slice (win0_3.rect t)).set ↔ _
  rw [View.set_slice_whole, Rect.mem_set_unit]
  exact Iff.rfl

/-- Every index of the result is in the block of the point its row falls in: row r is written at point r / 1024. -/
theorem cover (i : S32768x1024.Idx) :
    ∃ t : Fin cfg0.N, (cfg0.win 3).flush t = true ∧ i ∈ ((cfg0.win 3).blk t).view.set := by
  have hN : cfg0.N = 32 := N_0
  have hi0 : (i 0).val < 32768 := (i 0).isLt
  have hi1 : (i 1).val < 1024 := (i 1).isLt
  let t : Fin cfg0.N := ⟨(i 0).val / 1024, by rw [hN]; omega⟩
  obtain ⟨-, -, -, -, -, -, e0, e1⟩ := idx_facts t
  have ht : t.val = (i 0).val / 1024 := rfl
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    rw [e0, ht]; omega
  | ⟨1, _⟩ =>
    show win0_3.index t (1 : Fin 2) * 1024 ≤ (i 1).val ∧ (i 1).val < win0_3.index t (1 : Fin 2) * 1024 + 1024
    rw [e1]; omega

/-- THE ARRAY after the run is the specification of the argument arrays. -/
theorem final (c : Dev nD) : (dats m 0 c).arrAt 3 cfg0.N = G (xs m c) (cs m c) :=
  (dats m 0 c).arrAt_eq_of_cover 3 (G (xs m c) (cs m c)) (fun t _ => flushed_eq m c t) cover

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v6) = G (xs m c) (cs m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.ClusterHead.Array

end
-- ==== Proof.FiniteInputs.lean ====
/-
  The precondition, read back. It says: the conjunction over every entry of x of |x| < +∞, and the same over every entry
  of the centers, is true. On the extended reals |a| is max a (−a), which is +∞ at both infinities; so an entry with
  |a| < +∞ is a real number. Hence under the precondition both argument arrays are arrays of reals.
-/
import proofs.«117684_j66589172957621_2_alg».proof.Pre_finite_inputs
import Idealize.ShloMosaic.PureOps.Ideal
import Idealize.ShloMosaic.PureOps.Ideal.Laws
import Idealize.ShloMosaic.Lib.ReduceAll
import Idealize.ShloMosaic.Lib.Pipeline.Value
import Idealize.ShloMosaic.Lib.ValueIdx

noncomputable section

namespace Cert.ClusterHead.Finite

open Idealize.ShloMosaic Idealize.ShloMosaic.ValueIdx Cert.Pre_finite_inputs

/-- An extended real whose absolute value compares below the pattern of +∞ is a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  have hlt : max x (-x) < ⊤ := by
    by_contra hn
    simp [Ideal.cmp, hn] at h
  induction x using EReal.rec with
  | bot => simp at hlt
  | top => simp at hlt
  | coe r => exact ⟨r, rfl⟩

instance : Subsingleton S_.Idx := ⟨fun a b => funext fun d => d.elim0⟩

/-- Under the precondition every entry of x and every entry of the centers is a real. -/
theorem entries_real [Facts] (X : FVec Ideal S32768x512 .f32) (C : FVec Ideal S1024x512 .f32)
    (h : fn (F := Ideal) X C = fun _ => 1#1) :
    (∀ i, ∃ r : ℝ, X i = (r : EReal)) ∧ (∀ i, ∃ r : ℝ, C i = (r : EReal)) := by
  have h0 := congrFun h ix0
  dsimp only [fn] at h0
  obtain ⟨hA, hB⟩ := IntOp.andi_eq_one.1 h0
  have hx := fun i => Host.reduce_andi_all _ _ _ _ ix0 hA i
  have hc := fun i => Host.reduce_andi_all _ _ _ _ ix0 hB i
  constructor
  · intro i
    refine real_of_abs_lt (X i) ?_
    have hi := hx i
    rw [cmpf_apply, broadcastInDim_apply _ _ _ i ix0 (fun a => a.elim0)] at hi
    exact hi
  · intro i
    refine real_of_abs_lt (C i) ?_
    have hi := hc i
    rw [cmpf_apply, broadcastInDim_apply _ _ _ i ix0 (fun a => a.elim0)] at hi
    exact hi

end Cert.ClusterHead.Finite

end
-- ==== Proof.lean ====
/-
  The kernel assigns each of 32768 points x_n ∈ ℝ⁵¹² a probability over 1024 centers c_k: the softmax over k of
  x_n · c_k − ½ |c_k|². The reference takes the softmax over k of −½ |x_n − c_k|², written out as
  −½ (|x_n|² + |c_k|² − 2 x_n · c_k). For finite inputs the second logit is the first plus −½ |x_n|², which is the same
  for every center k, and a softmax does not change when one number is added to every entry of its row: each entry less
  the row's maximum is unchanged (Proof/SoftmaxLaw.lean). So the two programs compute one function, index by index,
  at the extended reals.

  Finiteness is used, and only for that law: on the extended reals −½ · (a + b − 2 c) is the sum of its three parts,
  and a + t − (M + t) = a − M, when the quantities are real. The precondition gives it (Proof/FiniteInputs.lean):
  every entry of both inputs is a real. Everything else — the matrix product as a sum over the features, the row
  maximum folded from −∞, the exponentials, the row sum, the quotient — is read the same on both sides
  (Proof/KernelBlock.lean for the kernel body at an entry of its block, Proof/KernelArray.lean from the 32 row
  blocks to the array, Proof/RefValue.lean for the reference).

  The kernel's run is idealized by no rewrite (changes of float format are the identity on the extended reals), so
  there is nothing to preserve; the three frames are the generated ones, the reference's read off its generated run.
-/
import proofs.«117684_j66589172957621_2_alg».proof.Defs
import proofs.«117684_j66589172957621_2_alg».proof.Proof.Gen.Kernel
import proofs.«117684_j66589172957621_2_alg».proof.Proof.Gen.Kernel.Skeleton
import proofs.«117684_j66589172957621_2_alg».proof.Proof.Gen.Kernel.Launch
import proofs.«117684_j66589172957621_2_alg».proof.Proof.Gen.Kernel.Points
import proofs.«117684_j66589172957621_2_alg».proof.Proof.Gen.Kernel.Frame
import proofs.«117684_j66589172957621_2_alg».proof.Proof.Gen.KernelIdeal
import proofs.«117684_j66589172957621_2_alg».proof.Proof.Gen.KernelIdeal.Skeleton
import proofs.«117684_j66589172957621_2_alg».proof.Proof.Gen.KernelIdeal.Launch
import proofs.«117684_j66589172957621_2_alg».proof.Proof.Gen.KernelIdeal.Points
import proofs.«117684_j66589172957621_2_alg».proof.Proof.Gen.KernelIdeal.Frame
import proofs.«117684_j66589172957621_2_alg».proof.Proof.Gen.ReferenceIdeal
import proofs.«117684_j66589172957621_2_alg».proof.Proof.Gen.Pre_finite_inputs
import proofs.«117684_j66589172957621_2_alg».proof.Proof.Gen.KernelIdeal.Value
import proofs.«117684_j66589172957621_2_alg».proof.Proof.Gen.ReferenceIdeal.Run
import proofs.«117684_j66589172957621_2_alg».proof.Proof.Gen.ReferenceIdeal.Read
import proofs.«117684_j66589172957621_2_alg».proof.Proof.RefValue
import proofs.«117684_j66589172957621_2_alg».proof.Proof.KernelArray
import proofs.«117684_j66589172957621_2_alg».proof.Proof.FiniteInputs
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- Both programs end with the result array at the softmax, over the centers, of x_n · c_k − ½ |c_k|²: the kernel
    block by block, the reference by the shift law at arrays of reals, which the precondition gives. -/
theorem algebraic : Cert.algebraic_KernelIdeal_ReferenceIdeal := by
  intro m ρ m' ρ' hpre hagree
  refine ⟨fun c => Cert.Softmax.G (Cert.ClusterHead.Array.xs m c) (Cert.ClusterHead.Array.cs m c),
    Cert.ClusterHead.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, (hagree c).1, (hagree c).2]
  obtain ⟨hX, hC⟩ := Cert.ClusterHead.Finite.entries_real _ _ (hpre c)
  exact Cert.ClusterHead.Ref.result_eq _ _ hX hC

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
